-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.Spec.lean ====
/-
  A graph-convolution layer on the extended reals, read index by index.

  For node features X (N × D), a dense adjacency A (N × N), a weight W (D' × D) and a bias b (D'), the layer is
      layer X A W b (p, q) = max (Σ_k A(p,k) · (Σ_d X(k,d) · W(q,d)) + b(q), 0):
  the features are projected first (X · Wᵀ, entry (k, q) being row k of X against row q of W) and the projected
  rows are then aggregated along row p of A. The other grouping of the same triple product aggregates first and
  projects afterwards,
      layerAgg X A W b (p, q) = max (Σ_d (Σ_k A(p,k) · X(k,d)) · W(q,d) + b(q), 0).
  The two agree when every entry of A, X and W is a real number: a factor moves across a finite sum and the two
  sums change places. That is distributivity, which on the extended reals fails at the infinities, so the
  statement asks for real entries; the bias and the maximum with zero are the same on both sides and ask nothing.
  The zero of the maximum is kept as the f32 word both programs print; it is never evaluated.
-/
import Idealize.ShloMosaic.PureOps.Ideal
import Idealize.ShloMosaic.Lib.ValueIdx
import proofs.«110144_g7507602833631_cont_9to1_m_1148_26_alg».proof.Proof.LibVecMatAssoc
import proofs.«110144_g7507602833631_cont_9to1_m_1148_26_alg».proof.Proof.LibRealValued

noncomputable section

namespace Cert.GraphConv

open Idealize.ShloMosaic Idealize.ShloMosaic.ValueIdx Cert.Lib.RealValued

/-- The shapes: features and result N × D, adjacency N × N, weight D' × D, bias D' (N = 10000, D = D' = 128). -/
abbrev SX : Shape := ⟨2, ![10000, 128]⟩
abbrev SA : Shape := ⟨2, ![10000, 10000]⟩
abbrev SW : Shape := ⟨2, ![128, 128]⟩
abbrev SB : Shape := ⟨1, ![128]⟩

/-- The projected features X · Wᵀ at (k, q): row k of X against row q of W. -/
def proj (X : SX.Idx → EReal) (W : SW.Idx → EReal) (k : Fin 10000) (q : Fin 128) : EReal :=
  ∑ d : Fin 128, X (ix2 k d) * W (ix2 q d)

/-- The layer at (p, q), projecting first: row p of A against column q of the projected features, plus the
    bias, rectified. -/
def layer (X : SX.Idx → EReal) (A : SA.Idx → EReal) (W : SW.Idx → EReal) (b : SB.Idx → EReal)
    (p : Fin 10000) (q : Fin 128) : EReal :=
  max (∑ k : Fin 10000, A (ix2 p k) * proj X W k q + b (ix1 q)) (Ideal.ofBits .f32 0x00000000#32)

/-- The layer at (p, q), aggregating first: row p of A · X against row q of W, plus the bias, rectified. -/
def layerAgg (X : SX.Idx → EReal) (A : SA.Idx → EReal) (W : SW.Idx → EReal) (b : SB.Idx → EReal)
    (p : Fin 10000) (q : Fin 128) : EReal :=
  max (∑ d : Fin 128, (∑ k : Fin 10000, A (ix2 p k) * X (ix2 k d)) * W (ix2 q d) + b (ix1 q))
    (Ideal.ofBits .f32 0x00000000#32)

/-- The two groupings agree on real entries: (a · X) · w = a · (X · w) for the row a = A(p, ·) and the row
    w = W(q, ·). -/
theorem layerAgg_eq_layer {X : SX.Idx → EReal} {A : SA.Idx → EReal} {W : SW.Idx → EReal} (hX : AllReal X)
    (hA : AllReal A) (hW : AllReal W) (b : SB.Idx → EReal) (p : Fin 10000) (q : Fin 128) :
    layerAgg X A W b p q = layer X A W b p q := by
  unfold layerAgg layer proj
  rw [Cert.Lib.VecMatAssoc.vec_mat_assoc (fun k : Fin 10000 => A (ix2 p k)) (fun (k : Fin 10000) (d : Fin 128) => X (ix2 k d))
    (fun d : Fin 128 => W (ix2 q d)) (fun k => hA (ix2 p k)) (fun k d => hX (ix2 k d)) (fun d => hW (ix2 q d))]

/-- The layer as one array: entry j is the layer at j's two coordinates. -/
def G (X : SX.Idx → EReal) (A : SA.Idx → EReal) (W : SW.Idx → EReal) (b : SB.Idx → EReal) : SX.Idx → EReal :=
  fun j => layer X A W b ⟨(j 0).val, idx2_lt0 j⟩ ⟨(j 1).val, idx2_lt1 j⟩

theorem G_ix2 (X : SX.Idx → EReal) (A : SA.Idx → EReal) (W : SW.Idx → EReal) (b : SB.Idx → EReal)
    (p : Fin 10000) (q : Fin 128) : G X A W b (ix2 p q) = layer X A W b p q := rfl

end Cert.GraphConv

end
-- ==== Proof.Payload.lean ====
/-
  The two values the kernel body stores, read at an index on the extended reals.

  The body first (at the grid's first point only) stores the projected features: the product of the feature
  block X with the weight block W contracted along the SECOND axis of both, that is X · Wᵀ, whose entry (k, q)
  is Σ_d X(k,d) · W(q,d). The change of float format that follows is the identity on extended reals.
  At every point it then stores, for its 400 rows of the adjacency block a and the carried projected features y,
      max (Σ_k a(p,k) · y(k,q) + b(0,q), 0)
  at (p, q): a plain rows-by-columns product into a zero accumulator, the one bias row repeated down the rows,
  and the maximum with the splat zero. A product into a zero accumulator is the bare sum over the contracted axis;
  the sum's index is carried from the record's own contraction index to Fin 128 / Fin 10000 by the one-axis
  equivalence, and each operand's index at a contraction position is read off the record axis by axis.
-/
import proofs.«110144_g7507602833631_cont_9to1_m_1148_26_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Payload

open Cert.KernelIdeal Cert.KernelIdeal.Gen Idealize.ShloMosaic Idealize.ShloMosaic.ValueIdx

/-- The projection's dimension record: X (10000 × 128) against W (128 × 128), axis 1 of each contracted. -/
abbrev dProj : DotDims S10000x128 S128x128 S10000x128 := dot_S10000x128_S128x128_S10000x128_1_1_0_0_n_n
/-- The aggregation's dimension record: a (400 × 10000) against y (10000 × 128), rows by columns. -/
abbrev dAgg : DotDims S400x10000 S10000x128 S400x128 := dot_S400x10000_S10000x128_S400x128_1_0_0_1_n_n

/-! ## The projection X · Wᵀ -/

/-- The left operand is read at the result's row … -/
theorem proj_lhs_row (i : S10000x128.Idx) (k : dProj.contr.Idx) : (dProj.lhsIdx i k 0).val = (i 0).val := by
  unfold DotDims.lhsIdx
  rw [dif_neg (show ¬(0 : Fin S10000x128.rank) ∈ dProj.lhsBatch by decide),
    dif_pos (show (0 : Fin S10000x128.rank) ∈ dProj.lhsNonContracting by decide)]
  rfl
/-- … and the contraction position; -/
theorem proj_lhs_contr (i : S10000x128.Idx) (k : dProj.contr.Idx) : (dProj.lhsIdx i k 1).val = (k ⟨0, by decide⟩).val :=
  dProj.lhsIdx_val_of_single rfl i k
/-- the right operand at the result's COLUMN, on its first axis (the weight is used transposed) … -/
theorem proj_rhs_row (i : S10000x128.Idx) (k : dProj.contr.Idx) : (dProj.rhsIdx i k 0).val = (i 1).val := by
  unfold DotDims.rhsIdx
  rw [dif_neg (show ¬(0 : Fin S128x128.rank) ∈ dProj.rhsBatch by decide),
    dif_pos (show (0 : Fin S128x128.rank) ∈ dProj.rhsNonContracting by decide)]
  rfl
/-- … and the contraction position on its second. -/
theorem proj_rhs_contr (i : S10000x128.Idx) (k : dProj.contr.Idx) : (dProj.rhsIdx i k 1).val = (k ⟨0, by decide⟩).val :=
  dProj.rhsIdx_val_of_single rfl i k

/-- The projection into a zero accumulator at (k, q): row k of X against row q of W. -/
theorem proj_matmul_apply {φ₁ φ₂ : FTy} (x : FVec Ideal S10000x128 φ₁) (w : FVec Ideal S128x128 φ₂) (k : Fin 10000) (q : Fin 128) :
    FloatOps.matmul dProj none x w (constant S10000x128 .f32 0x00000000#32) (ix2 k q) = ∑ d : Fin 128, x (ix2 k d) * w (ix2 q d) := by
  rw [Ideal.matmul_constant_zero_apply, ← Equiv.sum_comp (contrEquiv1 dProj 128 rfl rfl).symm]
  refine Finset.sum_congr rfl fun d _ => ?_
  have hd := contrEquiv1_symm_val dProj 128 rfl rfl d
  have el : dProj.lhsIdx (ix2 k q) ((contrEquiv1 dProj 128 rfl rfl).symm d) = ix2 k d := funext fun a => Fin.ext (by
    match a with
    | ⟨0, _⟩ => exact proj_lhs_row _ _
    | ⟨1, _⟩ => exact (proj_lhs_contr _ _).trans hd)
  have er : dProj.rhsIdx (ix2 k q) ((contrEquiv1 dProj 128 rfl rfl).symm d) = ix2 q d := funext fun a => Fin.ext (by
    match a with
    | ⟨0, _⟩ => exact proj_rhs_row _ _
    | ⟨1, _⟩ => exact (proj_rhs_contr _ _).trans hd)
  rw [el, er]

/-- What the first point stores in the carried buffer: the projected features. -/
theorem projected_apply (x : Vec Ideal S10000x128 .f32) (w : Vec Ideal S128x128 .f32) (k : Fin 10000) (q : Fin 128) :
    k0_pay1 (F := Ideal) x w (ix2 k q) = ∑ d : Fin 128, x (ix2 k d) * w (ix2 q d) := by
  unfold k0_pay1
  refine (congrFun (shapeCast_self _ _) (ix2 k q)).trans ?_
  exact proj_matmul_apply (φ₁ := .f32) (φ₂ := .f32) x w k q

/-! ## The aggregation a · y, the bias and the rectification -/

theorem agg_lhs_row (i : S400x128.Idx) (k : dAgg.contr.Idx) : (dAgg.lhsIdx i k 0).val = (i 0).val := by
  unfold DotDims.lhsIdx
  rw [dif_neg (show ¬(0 : Fin S400x10000.rank) ∈ dAgg.lhsBatch by decide),
    dif_pos (show (0 : Fin S400x10000.rank) ∈ dAgg.lhsNonContracting by decide)]
  rfl
theorem agg_lhs_contr (i : S400x128.Idx) (k : dAgg.contr.Idx) : (dAgg.lhsIdx i k 1).val = (k ⟨0, by decide⟩).val :=
  dAgg.lhsIdx_val_of_single rfl i k
theorem agg_rhs_contr (i : S400x128.Idx) (k : dAgg.contr.Idx) : (dAgg.rhsIdx i k 0).val = (k ⟨0, by decide⟩).val :=
  dAgg.rhsIdx_val_of_single rfl i k
theorem agg_rhs_col (i : S400x128.Idx) (k : dAgg.contr.Idx) : (dAgg.rhsIdx i k 1).val = (i 1).val := by
  unfold DotDims.rhsIdx
  rw [dif_neg (show ¬(1 : Fin S10000x128.rank) ∈ dAgg.rhsBatch by decide),
    dif_pos (show (1 : Fin S10000x128.rank) ∈ dAgg.rhsNonContracting by decide)]
  rfl

/-- The aggregation into a zero accumulator at (p, q): row p of a against column q of y. -/
theorem agg_matmul_apply {φ₁ φ₂ : FTy} (a : FVec Ideal S400x10000 φ₁) (y : FVec Ideal S10000x128 φ₂) (p : Fin 400) (q : Fin 128) :
    FloatOps.matmul dAgg none a y (constant S400x128 .f32 0x00000000#32) (ix2 p q) = ∑ k : Fin 10000, a (ix2 p k) * y (ix2 k q) := by
  rw [Ideal.matmul_constant_zero_apply, ← Equiv.sum_comp (contrEquiv1 dAgg 10000 rfl rfl).symm]
  refine Finset.sum_congr rfl fun k _ => ?_
  have hk := contrEquiv1_symm_val dAgg 10000 rfl rfl k
  have el : dAgg.lhsIdx (ix2 p q) ((contrEquiv1 dAgg 10000 rfl rfl).symm k) = ix2 p k := funext fun ax => Fin.ext (by
    match ax with
    | ⟨0, _⟩ => exact agg_lhs_row _ _
    | ⟨1, _⟩ => exact (agg_lhs_contr _ _).trans hk)
  have er : dAgg.rhsIdx (ix2 p q) ((contrEquiv1 dAgg 10000 rfl rfl).symm k) = ix2 k q := funext fun ax => Fin.ext (by
    match ax with
    | ⟨0, _⟩ => exact (agg_rhs_contr _ _).trans hk
    | ⟨1, _⟩ => exact agg_rhs_col _ _)
  rw [el, er]

/-- What every point stores in its output block, at (p, q): the adjacency rows against the carried projected
    features, plus the bias row, rectified. -/
theorem rectified_apply (a : Vec Ideal S400x10000 .f32) (y : Vec Ideal S10000x128 .bf16) (b : Vec Ideal S1x128 .f32)
    (p : Fin 400) (q : Fin 128) :
    k0_pay2 (F := Ideal) a y b (ix2 p q)
      = max (∑ k : Fin 10000, a (ix2 p k) * y (ix2 k q) + b (ix2 (0 : Fin 1) q)) (Ideal.ofBits .f32 0x00000000#32) := by
  unfold k0_pay2
  have hsum : FloatOps.matmul (F := Ideal) (φ₁ := .bf16) (φ₂ := .bf16) dAgg none (truncf .bf16 (a : FVec Ideal S400x10000 .f32) bitsLt_bf16_f32)
        (y : FVec Ideal S10000x128 .bf16) (constant S400x128 .f32 0x00000000#32) (ix2 p q)
      = ∑ k : Fin 10000, a (ix2 p k) * y (ix2 k q) := by
    refine (agg_matmul_apply (φ₁ := .bf16) (φ₂ := .bf16) (truncf .bf16 (a : FVec Ideal S400x10000 .f32) bitsLt_bf16_f32) y p q).trans ?_
    exact Finset.sum_congr rfl fun k _ => rfl
  have hbias : broadcastTo S400x128 (shapeCast S1x128 b shapeCasts_S1x128_S1x128) broadcasts_S1x128_S400x128 (ix2 p q)
      = b (ix2 (0 : Fin 1) q) :=
    (broadcastTo_1b_ab_apply _ broadcasts_S1x128_S400x128 p q).trans (congrFun (shapeCast_self b _) _)
  exact congrArg₂ max (congrArg₂ (· + ·) hsum hbias) rfl

end Cert.GraphConv.Payload

end
-- ==== Proof.Blocks.lean ====
/-
  The kernel's input blocks, read off its argument arrays.

  The kernel walks 25 grid points; point t stages rows 400·t … 400·t + 399 of the adjacency, the whole feature
  matrix, the whole weight, and the bias as the one row the host made of it before the region. A block's coordinate
  in its array is (block index) × (block extent) + (coordinate inside the block), and the block indices are decided
  once over the 25 points: the adjacency's and the result's block row is t, every other block index is 0. So the
  feature, weight and bias blocks ARE their arrays at every point, and row p of the adjacency block is row
  400·t + p of the adjacency.
-/
import proofs.«110144_g7507602833631_cont_9to1_m_1148_26_alg».proof.Proof.Spec
import proofs.«110144_g7507602833631_cont_9to1_m_1148_26_alg».proof.Proof.Gen.KernelIdeal.Frame
import Idealize.ShloMosaic.Lib.ValueLayout
import Idealize.ShloMosaic.Lib.Pipeline.Value
import Idealize.ShloMosaic.Lib.StableHlo.Run

noncomputable section

namespace Cert.GraphConv.Blocks

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-- The four argument arrays as launched: features, adjacency, weight, bias. -/
abbrev feat (c : Dev nD) : SX.Idx → EReal := m ((c : Thread nD τ).loc main_arg0)
abbrev adj (c : Dev nD) : SA.Idx → EReal := m ((c : Thread nD τ).loc main_arg1)
abbrev wt (c : Dev nD) : SW.Idx → EReal := m ((c : Thread nD τ).loc main_arg2)
abbrev bias (c : Dev nD) : SB.Idx → EReal := m ((c : Thread nD τ).loc main_arg3)

/-! ## The input blocks -/

/-- The block indices, decided over the 25 points: the adjacency's and the result's block row is the point, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the adjacency block at point t is row 400·t + p of the adjacency. -/
theorem adj_blk (c : Dev nD) (t : Fin cfg0.N) (p : Fin 400) (k : Fin 10000) (r : Fin 10000) (hr : r.val = 400 * t.val + p.val) :
    iblk m c 0 t (ix2 p k) = adj m c (ix2 r k) := by
  obtain ⟨e0, e1, -⟩ := idx_facts t
  unfold iblk
  rw [View.read_apply]
  show V m c main_arg1 (((cfg0.win 0).blk t).view.emb (ix2 p k)) = _
  rw [V_main_arg1]
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The feature block is the feature matrix, at every point. -/
theorem feat_blk (c : Dev nD) (t : Fin cfg0.N) (k : Fin 10000) (d : Fin 128) :
    iblk m c 1 t (ix2 k d) = feat m c (ix2 k d) := by
  obtain ⟨-, -, e0, e1, -⟩ := idx_facts t
  unfold iblk
  rw [View.read_apply]
  show V m c main_arg0 (((cfg0.win 1).blk t).view.emb (ix2 k d)) = _
  rw [V_main_arg0]
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * d.val = d.val; omega

/-- The weight block is the weight, at every point. -/
theorem wt_blk (c : Dev nD) (t : Fin cfg0.N) (q : Fin 128) (d : Fin 128) :
    iblk m c 2 t (ix2 q d) = wt m c (ix2 q d) := by
  obtain ⟨-, -, -, -, e0, e1, -⟩ := idx_facts t
  unfold iblk
  rw [View.read_apply]
  show V m c main_arg2 (((cfg0.win 2).blk t).view.emb (ix2 q d)) = _
  rw [V_main_arg2]
  refine congrArg _ (funext fun a => Fin.ext ?_)
  match a with
  | ⟨0, _⟩ => show win0_2.index t (0 : Fin 2) * 128 + 1 * q.val = q.val; omega
  | ⟨1, _⟩ => show win0_2.index t (1 : Fin 2) * 128 + 1 * d.val = d.val; omega

/-- As whole blocks: the feature block at any point is the feature matrix … -/
theorem feat_blk_eq (c : Dev nD) (t : Fin cfg0.N) : (iblk m c 1 t : Vec Ideal S10000x128 .f32) = feat m c := by
  funext j
  obtain ⟨k, d, rfl⟩ : ∃ (k : Fin 10000) (d : Fin 128), j = ix2 k d := ⟨j 0, j 1, eq_ix2 j⟩
  exact feat_blk m c t k d

/-- … and the weight block is the weight. -/
theorem wt_blk_eq (c : Dev nD) (t : Fin cfg0.N) : (iblk m c 2 t : Vec Ideal S128x128 .f32) = wt m c := by
  funext j
  obtain ⟨q, d, rfl⟩ : ∃ (q : Fin 128) (d : Fin 128), j = ix2 q d := ⟨j 0, j 1, eq_ix2 j⟩
  exact wt_blk m c t q d

/-- The bias block is the bias laid out as one row: the region finds it cast from [128] to [1, 128]. -/
theorem bias_blk (c : Dev nD) (t : Fin cfg0.N) (q : Fin 128) :
    iblk m c 3 t (ix2 (0 : Fin 1) q) = bias m c (ix1 q) := by
  obtain ⟨-, -, -, -, -, -, e0, e1, -⟩ := idx_facts t
  have e : (V m c main_v0 : S1x128.Idx → EReal) = shapeCast S1x128 (m ((c : Thread nD τ).loc main_arg3)) shapeCasts_S128_S1x128 := by
    dsimp only [V, hostOps0]; after_results; rfl
  unfold iblk
  rw [View.read_apply]
  show V m c main_v0 (((cfg0.win 3).blk t).view.emb (ix2 (0 : Fin 1) q)) = _
  rw [e]
  have hemb : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 128 + 1 * q.val = q.val; omega)
  rw [hemb]
  exact shapeCast_a_1a_apply _ _ 0 q

end Cert.GraphConv.Blocks

end
-- ==== Proof.Pieces.lean ====
/-
  What one run of the kernel body leaves behind, as values of its input blocks.

  The body has two control cases. At the grid's first point it stores the projected features X · Wᵀ of the
  feature block and the weight block whole into the buffer it carries between points, reads that buffer back, and
  stores into its output block the rectified aggregation of the adjacency block against what it just read.
  At every later point it stores nothing into the carried buffer and computes the same rectified aggregation
  against what the point before left there. Each store writes its buffer whole, through the rectangle at offset
  zero of the buffer's own size, so what a buffer holds afterwards is the one stored value; each load reads a whole
  buffer back, so the stored value is a function of the blocks themselves; and a whole load of what one whole store
  left is that store's value. The three statements hold at any reading of the floats.
-/
import proofs.«110144_g7507602833631_cont_9to1_m_1148_26_alg».proof.Proof.Gen.KernelIdeal.Frame
import Idealize.ShloMosaic.Lib.Pipeline.Value
import Idealize.ShloMosaic.Lib.Tactic

noncomputable section

namespace Cert.GraphConv.Pieces

open Cert.KernelIdeal Cert.KernelIdeal.Gen Idealize.ShloMosaic Idealize.ShloMosaic.TcCoe Idealize.SL.Sem

variable {F : FTy → Type} [FloatOps F]

/-- Every load and store of the body is at offset zero. -/
theorem offset_zero : (![0, 0] : Fin 2 → Nat) = fun _ => 0 := funext fun a => by fin_cases a <;> rfl

/-- THE FIRST POINT, the carried buffer: it is left holding the projected features of the feature block `x1`
    and the weight block `x2`. -/
theorem carried_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero offset_zero]
  simp only [View.readAt_eq_ld, h2.read_unread, h3.read_unread, View.ld_unit_zero (S := S10000x128) offset_zero,
    View.ld_unit_zero (S := S128x128) offset_zero]

/-- THE FIRST POINT, the output block: the rectified aggregation of the adjacency block `x0` against the projected
    features just stored and read back, with the bias row `x3`. -/
theorem out_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero offset_zero, View.readCov_unit_zero (S := S10000x128) _ offset_zero]
  simp only [View.readAt_eq_ld, h1.read_unread, h2.read_unread, h3.read_unread, h4.read_unread,
    View.ld_unit_zero (S := S400x10000) offset_zero, View.ld_unit_zero (S := S10000x128) offset_zero,
    View.ld_unit_zero (S := S128x128) offset_zero, View.ld_unit_zero (S := S1x128) offset_zero]

/-- A LATER POINT, the output block: the rectified aggregation of the adjacency block `x0` against what the point
    before left in the carried buffer (`xs0`), with the bias row `x3`. -/
theorem out_later (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : ¬cond0_0 i)
    (x0 : Vec F S400x10000 .f32) (x1 : Vec F S10000x128 .f32) (x2 : Vec F S128x128 .f32) (x3 : Vec F S1x128 .f32) (xs0 : Vec F S10000x128 .bf16) :
    out0_B_4 c i a1 h1 a2 h2 a3 h3 a4 h4 a5 h5 a6 h6 hc x0 x1 x2 x3 xs0 = k0_pay2 x0 xs0 x3 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero offset_zero]
  simp only [View.readAt_eq_ld, h1.read_unread, h4.read_unread, h6.read_unread, View.ld_unit_zero (S := S400x10000) offset_zero,
    View.ld_unit_zero (S := S10000x128) offset_zero, View.ld_unit_zero (S := S1x128) offset_zero]

end Cert.GraphConv.Pieces

end
-- ==== Proof.Carried.lean ====
/-
  The buffer the kernel carries between grid points, and each point's output block.

  The first point stores the projected features X · Wᵀ of its feature and weight blocks into the carried buffer, and
  no later point stores into it. The feature and weight blocks are the whole arrays at every point, so what the first
  point stores is the projected features of the ARRAYS, and after EVERY point the buffer holds them: induction on the
  point, a point being the first exactly when its number is divisible by 25. So every point's output block is the
  rectified aggregation of that point's adjacency block against the projected features, with the bias row — at the
  first point against what it has just stored and read back, at a later point against what the point before left,
  which is the same array.
-/
import proofs.«110144_g7507602833631_cont_9to1_m_1148_26_alg».proof.Proof.Pieces
import proofs.«110144_g7507602833631_cont_9to1_m_1148_26_alg».proof.Proof.Blocks
import proofs.«110144_g7507602833631_cont_9to1_m_1148_26_alg».proof.Proof.Gen.KernelIdeal.Frame
import Idealize.ShloMosaic.PureOps.Ideal
import Idealize.ShloMosaic.Lib.ValueIdx

noncomputable section

namespace Cert.GraphConv.Carried

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

open Cert.GraphConv.Blocks

/-- The projected features of the feature matrix and the weight, as the kernel body computes them. -/
def projected (c : Dev nD) : Vec Ideal S10000x128 .bf16 := k0_pay1 (F := Ideal) (feat m c) (wt m c)

/-- After every point the carried buffer holds them: stored at the first point, untouched afterwards. -/
theorem carried_eq (c : Dev nD) (n : ℕ) : ∀ t : Fin cfg0.N, t.val = n → (outsAt0 m c t.val t.isLt).2 = projected m c := by
  induction n with
  | zero =>
    intro t ht
    have h0 : t.val % 25 = 0 := by omega
    rw [outsAt0_A m c t h0]
    dsimp only
    refine (Pieces.carried_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    unfold projected
    rw [feat_blk_eq m c t, wt_blk_eq m c t]
  | succ n ih =>
    intro t ht
    have hN : cfg0.N = 25 := N_0
    have hlt : t.val < 25 := lt_of_lt_of_eq t.isLt hN
    have hB : ¬t.val % 25 = 0 := by omega
    rw [outsAt0_B m c t hB]
    dsimp only
    unfold sout0_B_0
    exact ih ⟨t.val - 1, Nat.lt_of_le_of_lt (Nat.sub_le _ _) t.isLt⟩ (by show t.val - 1 = n; omega)

/-- At every point the output block is the rectified aggregation of the point's adjacency block against the
    projected features, with the bias row. -/
theorem out_eq (c : Dev nD) (t : Fin cfg0.N) :
    (outsAt0 m c t.val t.isLt).1 = k0_pay2 (iblk m c 0 t) (projected m c) (iblk m c 3 t) := by
  by_cases h0 : t.val % 25 = 0
  · rw [outsAt0_A m c t h0]
    dsimp only
    refine (Pieces.out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    unfold projected
    rw [feat_blk_eq m c t, wt_blk_eq m c t]
  · rw [outsAt0_B m c t h0]
    dsimp only
    refine (Pieces.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    exact congrArg (fun y => k0_pay2 (iblk m c 0 t) y (iblk m c 3 t))
      (carried_eq m c (t.val - 1) ⟨t.val - 1, Nat.lt_of_le_of_lt (Nat.sub_le _ _) t.isLt⟩ rfl)

end Cert.GraphConv.Carried

end
-- ==== Proof.KernelSide.lean ====
/-
  The kernel's result array is the graph-convolution layer of its four argument arrays.

  Point t's output block is the rectified aggregation of its adjacency block against the carried projected features.
  Read at (p, q) through the two stored values and the input blocks, that is the layer at (400·t + p, q), projecting
  first. So what point t writes back is block t of the layer as one array; every row r of the result lies in the block
  of point r / 400; and the result array ends holding the layer.
-/
import proofs.«110144_g7507602833631_cont_9to1_m_1148_26_alg».proof.Proof.Spec
import proofs.«110144_g7507602833631_cont_9to1_m_1148_26_alg».proof.Proof.Payload
import proofs.«110144_g7507602833631_cont_9to1_m_1148_26_alg».proof.Proof.Blocks
import proofs.«110144_g7507602833631_cont_9to1_m_1148_26_alg».proof.Proof.Carried
import proofs.«110144_g7507602833631_cont_9to1_m_1148_26_alg».proof.Proof.Gen.KernelIdeal.Value

noncomputable section

namespace Cert.GraphConv.KernelSide

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

open Cert.GraphConv.Blocks Cert.GraphConv.Carried

/-- The projected features at (k, q) are row k of the features against row q of the weight. -/
theorem projected_apply (c : Dev nD) (k : Fin 10000) (q : Fin 128) :
    projected m c (ix2 k q) = proj (feat m c) (wt m c) k q :=
  Payload.projected_apply (feat m c) (wt m c) k q

/-- Point t's output block at (p, q) is the layer at row 400·t + p, column q. -/
theorem block_apply (c : Dev nD) (t : Fin cfg0.N) (p : Fin 400) (q : Fin 128) (r : Fin 10000) (hr : r.val = 400 * t.val + p.val) :
    (outsAt0 m c t.val t.isLt).1 (ix2 p q) = layer (feat m c) (adj m c) (wt m c) (bias m c) r q := by
  rw [out_eq m c t]
  refine (Payload.rectified_apply (iblk m c 0 t) (projected m c) (iblk m c 3 t) p q).trans ?_
  unfold layer
  rw [bias_blk m c t q]
  refine congrArg (fun s => max (s + bias m c (ix1 q)) (Ideal.ofBits .f32 0x00000000#32)) ?_
  exact Finset.sum_congr rfl fun k _ => by rw [adj_blk m c t p k r hr, projected_apply m c k q]

/-! ## From blocks to the array -/

/-- What point t writes back is block t of the layer as one array. -/
theorem flushed_eq (c : Dev nD) (t : Fin cfg0.N) :
    (dats m 0 c).flushed 4 t = ((cfg0.win 4).blk t).view.read (Elt Ideal) (G (feat m c) (adj m c) (wt m c) (bias m c)) := by
  rw [Cert.KernelIdeal.Value.flushed4]
  obtain ⟨-, -, -, -, -, -, -, -, e0, e1⟩ := idx_facts t
  have hN : cfg0.N = 25 := N_0
  funext j
  obtain ⟨p, q, rfl⟩ : ∃ (p : Fin 400) (q : Fin 128), j = ix2 p q := ⟨j 0, j 1, eq_ix2 j⟩
  have hr : 400 * t.val + p.val < 10000 := by have := t.isLt; have := p.isLt; omega
  show (outsAt0 m c t.val t.isLt).1 (ix2 p q) = G (feat m c) (adj m c) (wt m c) (bias m c) (((cfg0.win 4).blk t).view.emb (ix2 p q))
  have hemb : ((cfg0.win 4).blk t).view.emb (ix2 p q) = ix2 (⟨400 * t.val + p.val, hr⟩ : Fin 10000) q := funext fun a => Fin.ext (by
    match a with
    | ⟨0, _⟩ => show win0_4.index t (0 : Fin 2) * 400 + 1 * p.val = 400 * t.val + p.val; omega
    | ⟨1, _⟩ => show win0_4.index t (1 : Fin 2) * 128 + 1 * q.val = q.val; omega)
  rw [hemb, G_ix2]
  exact block_apply m c t p q ⟨400 * t.val + p.val, hr⟩ rfl

/-- An index of the result is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every index of the result is in some point's block: row r in the block of point r / 400. -/
theorem cover (i : S10000x128.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  let t : Fin cfg0.N := ⟨(i 0).val / 400, by omega⟩
  obtain ⟨-, -, -, -, -, -, -, -, e0, e1⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the run is the layer of the argument arrays. -/
theorem final (c : Dev nD) : (dats m 0 c).arrAt 4 cfg0.N = G (feat m c) (adj m c) (wt m c) (bias m c) :=
  (dats m 0 c).arrAt_eq_of_cover 4 (G (feat m c) (adj m c) (wt m c) (bias m c)) (fun t _ => flushed_eq m c t) cover

/-- The run, read: every weakly fair execution terminates with the result array at the layer of the argument
    arrays and the arguments unchanged. -/
theorem run : θ_run defs (onTc (τ := τ) (main (F := Ideal))) ⟨m, fun _ => 0, ρ⟩ fun r => ∀ c : Dev nD,
      r.2.mem ((c : Thread nD τ).loc main_v1) = G (feat m c) (adj m c) (wt m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.GraphConv.KernelSide

end
-- ==== Proof.RefSide.lean ====
/-
  The reference program of the graph-convolution layer, read index by index.

  The reference computes relu((A · X) · Wᵀ + b): it aggregates the features along the rows of the adjacency first
  and projects the aggregated rows by the weight afterwards. The first theorem says that its result at the index
  (p, q) is max (Σ_d (Σ_k A(p,k) · X(k,d)) · W(q,d) + b(q), 0), the aggregate-first form of the layer. The second
  says that, when every entry of X, A and W is a real number, the whole result is the layer as one array: the
  aggregate-first and the project-first groupings of the triple product agree on real entries.
-/
import Idealize.ShloMosaic.PureOps.Ideal
import Idealize.ShloMosaic.Lib.ValueIdx
import proofs.«110144_g7507602833631_cont_9to1_m_1148_26_alg».proof.Proof.Spec
import proofs.«110144_g7507602833631_cont_9to1_m_1148_26_alg».proof.Proof.Gen.ReferenceIdeal.Read

noncomputable section

namespace Cert.GraphConv.RefSide

open Idealize.ShloMosaic Idealize.ShloMosaic.ValueIdx Cert.GraphConv Cert.Lib.RealValued
open Cert.ReferenceIdeal.Read

/-- The left operand of the inner product, reached through the outer product's left index: row p, column k
    of the adjacency. -/
theorem lidx_v0_lidx_v2 (p : Fin 10000) (q : Fin 128) (d : Fin 128) (k : Fin 10000) :
    lidx_main_v0 (lidx_main_v2 (ix2 p q) d) k = ix2 p k :=
  funext fun a => Fin.ext (by match a with | ⟨0, _⟩ => rfl | ⟨1, _⟩ => rfl)

/-- The right operand of the inner product, reached through the outer product's left index: row k, column d
    of the features. -/
theorem ridx_v0_lidx_v2 (p : Fin 10000) (q : Fin 128) (d : Fin 128) (k : Fin 10000) :
    ridx_main_v0 (lidx_main_v2 (ix2 p q) d) k = ix2 k d :=
  funext fun a => Fin.ext (by match a with | ⟨0, _⟩ => rfl | ⟨1, _⟩ => rfl)

/-- The transposed weight at (d, q) is the weight at (q, d). -/
theorem idx_v1_ridx_v2 (p : Fin 10000) (q : Fin 128) (d : Fin 128) :
    idx_main_v1 (ridx_main_v2 (ix2 p q) d) = ix2 q d :=
  funext fun a => Fin.ext (by match a with | ⟨0, _⟩ => rfl | ⟨1, _⟩ => rfl)

/-- The bias, broadcast along the rows, is read at the column. -/
theorem idx_v3_idx_v4 (p : Fin 10000) (q : Fin 128) :
    idx_main_v3 (idx_main_v4 (ix2 p q)) = ix1 q :=
  funext fun a => Fin.ext (by match a with | ⟨0, _⟩ => rfl)

/-- The reference at (p, q) is the aggregate-first form of the layer. -/
theorem ref_apply (X : SX.Idx → EReal) (A : SA.Idx → EReal) (W : SW.Idx → EReal) (b : SB.Idx → EReal) (p : Fin 10000) (q : Fin 128) :
    Cert.ReferenceIdeal.Read.val_main_v6 (F := Ideal) X A W b (ix2 p q) = layerAgg X A W b p q := by
  rw [val_main_v6_apply, val_main_v5_apply, val_main_v2_apply, val_main_v4_apply, val_main_v3_apply,
    val_main_call0_v0_apply, val_main_call0_cst_apply]
  simp only [val_main_v0_apply, val_main_v1_apply]
  simp only [lidx_v0_lidx_v2, ridx_v0_lidx_v2, idx_v1_ridx_v2, idx_v3_idx_v4, Ideal.addf_def, Ideal.maximumf_def,
    Ideal.ofBits_def]
  unfold layerAgg
  rfl

/-- On real entries the reference is the layer, as one array. -/
theorem ref_eq {X : SX.Idx → EReal} {A : SA.Idx → EReal} {W : SW.Idx → EReal} (hX : AllReal X) (hA : AllReal A) (hW : AllReal W) (b : SB.Idx → EReal) :
    Cert.ReferenceIdeal.Read.val_main_v6 (F := Ideal) X A W b = G X A W b := by
  funext j
  obtain ⟨p, q, rfl⟩ : ∃ (p : Fin 10000) (q : Fin 128), j = ix2 p q := ⟨j 0, j 1, eq_ix2 j⟩
  rw [ref_apply, G_ix2, layerAgg_eq_layer hX hA hW]

end Cert.GraphConv.RefSide

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«110144_g7507602833631_cont_9to1_m_1148_26_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition "every float input is finite", applied to the four arguments.

  The precondition is the conjunction of four tests, one per argument array: the `and`-reduction over all axes
  of `|x| < +∞`, entry by entry. If the conjunction is `1` then each of the four tests is `1`, and a test that is `1`
  says every entry of its array is a real number (neither `⊤` nor `⊥`). So under the precondition the four arrays
  `X`, `A`, `W`, `b` are real-valued.
-/
import proofs.«110144_g7507602833631_cont_9to1_m_1148_26_alg».proof.Proof.LibFiniteTest
import proofs.«110144_g7507602833631_cont_9to1_m_1148_26_alg».proof.Proof.Gen.Pre_finite_inputs
import Idealize.ShloMosaic.Lib.ValueIdx
import Idealize.ShloMosaic.Lib.ReduceAll

noncomputable section

namespace Cert.GraphConv.Finite

open Idealize.ShloMosaic Cert.Lib.RealValued Cert.Pre_finite_inputs

/-- The scalar shape has one index. -/
instance subsingleton_scalar_idx : Subsingleton S_.Idx := ⟨fun a b => funext fun d => d.elim0⟩

/-- The entrywise `and` of two `i1` arrays is `1` at an index exactly when both are `1` there. -/
theorem andi_apply_eq_one {s : Shape} (x y : IVec s 1) (i : s.Idx) :
    andi x y i = 1#1 ↔ x i = 1#1 ∧ y i = 1#1 := IntOp.andi_eq_one

/-- Under the precondition each of the four argument arrays is real-valued: the precondition is the conjunction
    of the four tests `all(|x| < +∞)`, and each test that answered `1` makes its array real-valued. -/
theorem allReal_of_pre (X : FVec Ideal S10000x128 .f32) (A : FVec Ideal S10000x10000 .f32) (W : FVec Ideal S128x128 .f32) (b : FVec Ideal S128 .f32)
    (h : Cert.Pre_finite_inputs.fn (F := Ideal) X A W b = fun _ => 1#1) :
    AllReal X ∧ AllReal A ∧ AllReal W ∧ AllReal b := by
  have h0 := congrFun h ValueIdx.ix0
  dsimp only [fn, fn_part1] at h0
  rw [andi_apply_eq_one, andi_apply_eq_one, andi_apply_eq_one] at h0
  obtain ⟨⟨⟨hX, hA⟩, hW⟩, hb⟩ := h0
  exact ⟨Cert.Lib.FiniteTest.allReal_of_all X _ _ _ _ _ _ hX,
    Cert.Lib.FiniteTest.allReal_of_all A _ _ _ _ _ _ hA,
    Cert.Lib.FiniteTest.allReal_of_all W _ _ _ _ _ _ hW,
    Cert.Lib.FiniteTest.allReal_of_all b _ _ _ _ _ _ hb⟩

end Cert.GraphConv.Finite

end
-- ==== Proof.lean ====
/- The proof of `Cert.Claim` for a graph-convolution layer, relu(A · X · Wᵀ + b) over a dense 10000 × 10000 adjacency A,
   10000 × 128 features X, a 128 × 128 weight W and a bias b.

   The kernel regroups the triple product: it projects the features once, Y = X · Wᵀ, keeps Y between grid points,
   and for each block of 400 rows of A computes max(A_block · Y + b, 0). The reference aggregates first,
   max((A · X) · Wᵀ + b, 0). On the extended reals the two groupings agree entry by entry as soon as the entries of
   A, X and W are real numbers — a factor moves across a finite sum and two finite sums change places — and the
   precondition says exactly that every input is finite. The changes of float format in the kernel are the identity
   on extended reals, and a product into a zero accumulator is the bare sum.

   Proof/Spec.lean states the layer index by index in both groupings and the law between them; Proof/RefSide.lean
   reads the reference as the aggregate-first grouping; Proof/Payload.lean, Proof/Pieces.lean, Proof/Blocks.lean,
   Proof/Carried.lean and Proof/KernelSide.lean read the kernel's result array as the project-first grouping (the
   carried projected features by induction on the grid point, the result block by block); Proof/Finite.lean draws real entries from the precondition. The kernel's
   two frames are the generated ones, the reference's frame is its run with the result dropped, and the idealization
   rewrote nothing. -/
import proofs.«110144_g7507602833631_cont_9to1_m_1148_26_alg».proof.Defs
import proofs.«110144_g7507602833631_cont_9to1_m_1148_26_alg».proof.Proof.Gen.Kernel
import proofs.«110144_g7507602833631_cont_9to1_m_1148_26_alg».proof.Proof.Gen.Kernel.Frame
import proofs.«110144_g7507602833631_cont_9to1_m_1148_26_alg».proof.Proof.Gen.KernelIdeal
import proofs.«110144_g7507602833631_cont_9to1_m_1148_26_alg».proof.Proof.Gen.KernelIdeal.Frame
import proofs.«110144_g7507602833631_cont_9to1_m_1148_26_alg».proof.Proof.Gen.ReferenceIdeal
import proofs.«110144_g7507602833631_cont_9to1_m_1148_26_alg».proof.Proof.Gen.Pre_finite_inputs
import proofs.«110144_g7507602833631_cont_9to1_m_1148_26_alg».proof.Proof.Gen.KernelIdeal.Value
import proofs.«110144_g7507602833631_cont_9to1_m_1148_26_alg».proof.Proof.Gen.ReferenceIdeal.Run
import proofs.«110144_g7507602833631_cont_9to1_m_1148_26_alg».proof.Proof.Gen.ReferenceIdeal.Read
import proofs.«110144_g7507602833631_cont_9to1_m_1148_26_alg».proof.Proof.KernelSide
import proofs.«110144_g7507602833631_cont_9to1_m_1148_26_alg».proof.Proof.RefSide
import proofs.«110144_g7507602833631_cont_9to1_m_1148_26_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs that agree, the kernel's result array and the reference's are the same array of extended reals:
    the kernel's is the layer projecting first, the reference's the layer aggregating first, and on real entries the
    two groupings are one function. -/
theorem algebraic : Cert.algebraic_KernelIdeal_ReferenceIdeal := by
  intro m ρ m' ρ' hpre hagree
  refine ⟨fun c => Cert.GraphConv.G (Cert.GraphConv.Blocks.feat m c) (Cert.GraphConv.Blocks.adj m c)
      (Cert.GraphConv.Blocks.wt m c) (Cert.GraphConv.Blocks.bias m c), Cert.GraphConv.KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hW, -⟩ := Cert.GraphConv.Finite.allReal_of_pre _ _ _ _ (hpre c)
  rw [Cert.ReferenceIdeal.Read.val_main_v6_eq, (hagree c).1, (hagree c).2.1, (hagree c).2.2.1, (hagree c).2.2.2]
  exact Cert.GraphConv.RefSide.ref_eq hX hA hW _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
